-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S4x1x4096 : Shape := ⟨3, ![4, 1, 4096]⟩
abbrev S1x3x4096 : Shape := ⟨3, ![1, 3, 4096]⟩
abbrev S1x4096x3 : Shape := ⟨3, ![1, 4096, 3]⟩
abbrev S1x1x4096 : Shape := ⟨3, ![1, 1, 4096]⟩
abbrev S1x4096 : Shape := ⟨2, ![1, 4096]⟩
abbrev S3x4096 : Shape := ⟨2, ![3, 4096]⟩
abbrev S1x256x3 : Shape := ⟨3, ![1, 256, 3]⟩
abbrev S256x3 : Shape := ⟨2, ![256, 3]⟩
abbrev S256x1 : Shape := ⟨2, ![256, 1]⟩
abbrev S256x4096 : Shape := ⟨2, ![256, 4096]⟩
abbrev S256 : Shape := ⟨1, ![256]⟩
abbrev S1x256 : Shape := ⟨2, ![1, 256]⟩
abbrev S1x1x256 : Shape := ⟨3, ![1, 1, 256]⟩
abbrev S4096 : Shape := ⟨1, ![4096]⟩
abbrev S4x4096 : Shape := ⟨2, ![4, 4096]⟩
abbrev S_ : Shape := ⟨0, ![]⟩

abbrev nBuf : Space → Nat
  | .hbm => 16
  | .vmem => 9
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x1x4096, .f32⟩
  | .hbm, ⟨4, _⟩ => ⟨S4x1x4096, .f32⟩
  | .hbm, ⟨5, _⟩ => ⟨S4x4096, .f32⟩
  | .hbm, ⟨6, _⟩ => ⟨S4x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x3x4096, .f32⟩
  | .local _ .vmem, ⟨1, _⟩ => ⟨S1x3x4096, .f32⟩
  | .local _ .vmem, ⟨2, _⟩ => ⟨S1x4096x3, .f32⟩
  | .local _ .vmem, ⟨3, _⟩ => ⟨S1x4096x3, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k0_mult1 (k0_t1 : Fin k0_t1_loop.trips) : BitVec 32 :=
  let c0_i32_12 : BitVec 32 := 0#32
  let c0_i32 : BitVec 32 := 0#32
  let c1_i32 : BitVec 32 := 1#32
  let arg6 : BitVec 32 := Scf.iv c0_i32 c1_i32 k0_t1
  let c1_i32_11 : BitVec 32 := 1#32
  let v17 : BitVec 32 := Scalar.muli arg6 c1_i32_11
  let v18 : BitVec 32 := Scalar.addi c0_i32_12 v17
  let c256_i32 : BitVec 32 := 256#32
  let v19 : BitVec 32 := Scalar.muli v18 c256_i32
  v19
def k0_off1 (k0_t1 : Fin k0_t1_loop.trips) : Fin 3 → Nat :=
  let c0_13 : Index := 0#32
  let c0_i32_12 : BitVec 32 := 0#32
  let c0_i32 : BitVec 32 := 0#32
  let c1_i32 : BitVec 32 := 1#32
  let arg6 : BitVec 32 := Scf.iv c0_i32 c1_i32 k0_t1
  let c1_i32_11 : BitVec 32 := 1#32
  let v17 : BitVec 32 := Scalar.muli arg6 c1_i32_11
  let v18 : BitVec 32 := Scalar.addi c0_i32_12 v17
  let c256_i32 : BitVec 32 := 256#32
  let v19 : BitVec 32 := Scalar.muli v18 c256_i32
  let v20 : BitVec 32 := v19
  let v21 : Index := Scalar.indexCast v20
  let c0_14 : Index := 0#32
  ![0, v21.toNat, 0]
def k0_off2 (k0_t1 : Fin k0_t1_loop.trips) : Fin 3 → Nat :=
  let c0_17 : Index := 0#32
  let c0_18 : Index := 0#32
  let c0_i32_12 : BitVec 32 := 0#32
  let c0_i32 : BitVec 32 := 0#32
  let c1_i32 : BitVec 32 := 1#32
  let arg6 : BitVec 32 := Scf.iv c0_i32 c1_i32 k0_t1
  let c1_i32_11 : BitVec 32 := 1#32
  let v17 : BitVec 32 := Scalar.muli arg6 c1_i32_11
  let v18 : BitVec 32 := Scalar.addi c0_i32_12 v17
  let c256_i32 : BitVec 32 := 256#32
  let v19 : BitVec 32 := Scalar.muli v18 c256_i32
  let v20 : BitVec 32 := v19
  let v47 : Index := Scalar.indexCast v20
  ![0, 0, v47.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4x4096x3_S4x3x4096_0_2_1 : S4x4096x3.Transposes [0, 2, 1] S4x3x4096
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S3x4096_o0_0_S1x4096 : S3x4096.Slices ![0, 0] S1x4096
  slices_S3x4096_o1_0_S1x4096 : S3x4096.Slices ![1, 0] S1x4096
  slices_S3x4096_o2_0_S1x4096 : S3x4096.Slices ![2, 0] S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  h_S1x256x3 : 0 < S1x256x3.numel
  shapeCasts_S1x256x3_S256x3 : S1x256x3.ShapeCasts S256x3
  slices_S256x3_o0_0_S256x1 : S256x3.Slices ![0, 0] S256x1
  slices_S256x3_o0_1_S256x1 : S256x3.Slices ![0, 1] S256x1
  slices_S256x3_o0_2_S256x1 : S256x3.Slices ![0, 2] S256x1
  broadcasts_S1x4096_S256x4096 : S1x4096.Broadcasts S256x4096
  broadcasts_S256x1_S256x4096 : S256x1.Broadcasts S256x4096
  reduces_S256x4096_S256 : S256x4096.Reduces [1] S256
  shapeCasts_S256_S256x1 : S256.ShapeCasts S256x1
  transposes_S256x1_p1_0_S1x256 : S256x1.Transposes [1, 0] S1x256
  h_S1x1x256 : 0 < S1x1x256.numel
  shapeCasts_S1x1x256_S1x256 : S1x1x256.ShapeCasts S1x256
  shapeCasts_S1x256_S1x1x256 : S1x256.ShapeCasts S1x1x256
  reduces_S256x4096_S4096 : S256x4096.Reduces [0] S4096
  shapeCasts_S4096_S1x4096 : S4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S4x1x4096_S4x4096 : S4x1x4096.ShapeCasts S4x4096
  reducesTo_S4x4096_S_d0_1 : S4x4096.ReducesTo [0, 1] S_
  h_S_ : 0 < S_.numel
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x3.size a ≤ S1x4096x3.size a
  k0_off2_inb : ∀ k0_t1 : Fin k0_t1_loop.trips, ∀ a, (k0_off2 k0_t1) a + S1x1x256.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x4096.size a ≤ S4x3x4096.size a
  hwx0_0 : ∀ i : grid0.Coords, EltTy.bits .f32 = 32 ∨ (Rect.block (s := S4x3x4096) S1x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S4x4096x3.size a
  hwx0_1 : ∀ i : grid0.Coords, EltTy.bits .f32 = 32 ∨ (Rect.block (s := S4x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S4x1x4096.size a
  hwx0_2 : ∀ i : grid0.Coords, EltTy.bits .f32 = 32 ∨ (Rect.block (s := S4x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)

variable [Facts₀]

abbrev win0_0 : Pipeline.Window sig grid0 :=
  Pipeline.Window.ofSpec (Memref.whole main_v0) S1x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S4x1x4096x3 : Shape := ⟨4, ![4, 1, 4096, 3]⟩
abbrev S4x4096x1x3 : Shape := ⟨4, ![4, 4096, 1, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x1x4096x3, .f32⟩
  | .hbm, ⟨3, _⟩ => ⟨S4x4096x1x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S4x4096x3_S4x1x4096x3_0_2_3 : S4x4096x3.BroadcastsInDim S4x1x4096x3 (![0, 2, 3] : Fin 3 → Fin S4x1x4096x3.rank)
  bcast_S4x4096x3_S4x4096x1x3_0_1_3 : S4x4096x3.BroadcastsInDim S4x4096x1x3 (![0, 1, 3] : Fin 3 → Fin S4x4096x1x3.rank)
  bcast_S4x1x4096x3_S4x4096x4096x3_0_1_2_3 : S4x1x4096x3.BroadcastsInDim S4x4096x4096x3 (![0, 1, 2, 3] : Fin 4 → Fin S4x4096x4096x3.rank)
  bcast_S4x4096x1x3_S4x4096x4096x3_0_1_2_3 : S4x4096x1x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  bcast_S_S4x4096x4096 : S_.BroadcastsInDim S4x4096x4096 (![] : Fin 0 → Fin S4x4096x4096.rank)
  reducesTo_S4x4096x4096_S4x4096_d1 : S4x4096x4096.ReducesTo [1] S4x4096
  reducesTo_S4x4096x4096_S4x4096_d2 : S4x4096x4096.ReducesTo [2] S4x4096
  reducesTo_S4x4096_S_d0_1 : S4x4096.ReducesTo [0, 1] S_

variable [Facts₀]

class Facts : Prop extends Facts₀ where

variable [Facts]
-- ==== Proof.LoopPiecesBits.lean ====
/-
  One trip of the body's loop, and the loop's pieces.

  Trip k of the sixteen loads tile k of the y block (rows 256 k to 256 k + 255), computes the tile of squared
  distances against the whole x block, and stores twice: into the second output's buffer, at lanes 256 k to
  256 k + 255, the root-shifted row minima (rowPiece: a function of the tile alone); and into the scratch, whole,
  the running column minimum (colPiece: a function of the tile and of the scratch as the trip finds it). It also
  loads the lanes of the second output it is about to overwrite and uses nothing of them, so neither piece depends
  on what that buffer held.

  The loop's invariant keeps, per written buffer, the list of the pieces of the trips so far (latest first),
  each trip's pieces taken at the contents the earlier trips left. Spelt with the two pieces above, one more
  trip conses one piece on each list (pieces_succ); and the lists do not depend on the contents the second
  output's buffer had at loop entry (pieces_indep).
-/
import proofs.«120924_j39548058862073_2_alg».proof.Proof.Gen.Kernel.Loops

noncomputable section

namespace Cert.Kernel.LoopPieces

open Cert.Kernel Cert.Kernel.Gen
open Idealize.ShloMosaic Idealize.ShloMosaic.TcCoe Idealize.SL.Sem

variable {F : FTy → Type} [FloatOps F]

/-- Tile k of the y block: what trip k loads of it. -/
abbrev tile (arg2 : Memref sig .tc .vmem S1x4096x3 .f32) (X2 : BufTy.Contents (Elt F) arg2.view.ty)
    (k : Fin k0_t1_loop.trips) : Vec F S1x256x3 .f32 :=
  arg2.view.readAt (Elt F) (Rect.unit (s := S1x4096x3) (k0_off1 k) S1x256x3.size (k0_off1_inb k)).toLoadRect X2

/-- What trip k stores into the second output's buffer: the tile's root-shifted row minima at the trip's lanes. -/
abbrev rowPiece (v0 : Vec F S1x3x4096 .f32) (arg2 : Memref sig .tc .vmem S1x4096x3 .f32)
    (X2 : BufTy.Contents (Elt F) arg2.view.ty) (k : Fin k0_t1_loop.trips) : View.Piece (Elt F) S1x1x4096 .f32 :=
  ⟨Rect.unit (s := S1x1x4096) (k0_off2 k) S1x1x256.size (k0_off2_inb k), k0_pay3 v0 (tile arg2 X2 k)⟩

/-- What trip k stores into the scratch, found at contents f5: the running column minimum, whole. -/
abbrev colPiece (arg5 : Memref sig .tc .vmem S1x4096 .f32) (v0 : Vec F S1x3x4096 .f32)
    (arg2 : Memref sig .tc .vmem S1x4096x3 .f32) (X2 : BufTy.Contents (Elt F) arg2.view.ty)
    (k : Fin k0_t1_loop.trips) (f5 : BufTy.Contents (Elt F) arg5.view.ty) : View.Piece (Elt F) S1x4096 .f32 :=
  ⟨Rect.unit (s := S1x4096) ![0, 0] S1x4096.size inb_S1x4096_S1x4096_0_0,
    k0_pay4 v0 (tile arg2 X2 k)
      (arg5.view.readAt (Elt F) (Rect.unit (s := S1x4096) ![0, 0] S1x4096.size inb_S1x4096_S1x4096_0_0).toLoadRect f5)⟩

section
variable (𝒱 : Variants) (c : Dev nD) (bd : Option 𝒱.V) (i : grid0.Coords) (arg1 : Memref sig .tc .vmem S1x3x4096 .f32) (harg1 : arg1.IsWhole) (arg2 : Memref sig .tc .vmem S1x4096x3 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x4096 .f32) (harg5 : arg5.IsWhole) (v0 : Vec F S1x3x4096 .f32) (X2 : BufTy.Contents (Elt F) arg2.view.ty)

/-- One trip's two piece lists, read off the trip's run: one piece each. -/
theorem trip_eq (k : Fin k0_t1_loop.trips) (f4 : BufTy.Contents (Elt F) arg4.view.ty) (f5 : BufTy.Contents (Elt F) arg5.view.ty) :
    tripL_k0_t1 (F := F) 𝒱 c bd i arg1 harg1 arg2 harg2 arg3 harg3 arg4 harg4 arg5 harg5 v0 X2 k f4 f5 = ([rowPiece v0 arg2 X2 k], [colPiece arg5 v0 arg2 X2 k f5]) := by
  unfold tripL_k0_t1
  unfold trip_k0_t1
  rfl

/-- One more trip conses one piece on each list. -/
theorem pieces_succ (G4 : BufTy.Contents (Elt F) arg4.view.ty) (G5 : BufTy.Contents (Elt F) arg5.view.ty) (n : ℕ) (hn : n < k0_t1_loop.trips) :
    pb_k0_t1 (F := F) 𝒱 c bd i arg1 harg1 arg2 harg2 arg3 harg3 arg4 harg4 arg5 harg5 v0 X2 G4 G5 (n + 1)
      = (rowPiece v0 arg2 X2 ⟨n, hn⟩ :: (pb_k0_t1 (F := F) 𝒱 c bd i arg1 harg1 arg2 harg2 arg3 harg3 arg4 harg4 arg5 harg5 v0 X2 G4 G5 n).1,
         colPiece arg5 v0 arg2 X2 ⟨n, hn⟩ (arg5.view.writes (Elt F) G5 (pb_k0_t1 (F := F) 𝒱 c bd i arg1 harg1 arg2 harg2 arg3 harg3 arg4 harg4 arg5 harg5 v0 X2 G4 G5 n).2)
           :: (pb_k0_t1 (F := F) 𝒱 c bd i arg1 harg1 arg2 harg2 arg3 harg3 arg4 harg4 arg5 harg5 v0 X2 G4 G5 n).2) := by
  have h := pb_k0_t1_succ (F := F) 𝒱 c bd i arg1 harg1 arg2 harg2 arg3 harg3 arg4 harg4 arg5 harg5 v0 X2 G4 G5 ⟨n, hn⟩
  rw [trip_eq] at h
  exact h

/-- The pieces do not depend on what the second output's buffer held at loop entry. -/
theorem pieces_indep (G4 G4' : BufTy.Contents (Elt F) arg4.view.ty) (G5 : BufTy.Contents (Elt F) arg5.view.ty) :
    ∀ n, n ≤ k0_t1_loop.trips → pb_k0_t1 (F := F) 𝒱 c bd i arg1 harg1 arg2 harg2 arg3 harg3 arg4 harg4 arg5 harg5 v0 X2 G4 G5 n = pb_k0_t1 (F := F) 𝒱 c bd i arg1 harg1 arg2 harg2 arg3 harg3 arg4 harg4 arg5 harg5 v0 X2 G4' G5 n
  | 0, _ => rfl
  | n + 1, hn => by
    have ih := pieces_indep G4 G4' G5 n (Nat.le_of_succ_le hn)
    rw [pieces_succ 𝒱 c bd i arg1 harg1 arg2 harg2 arg3 harg3 arg4 harg4 arg5 harg5 v0 X2 G4 G5 n hn, pieces_succ 𝒱 c bd i arg1 harg1 arg2 harg2 arg3 harg3 arg4 harg4 arg5 harg5 v0 X2 G4' G5 n hn, ih]

end

end Cert.Kernel.LoopPieces

end
-- ==== Proof.LoopPieces.lean ====
/-
  One trip of the body's loop, and the loop's pieces.

  Trip k of the sixteen loads tile k of the y block (rows 256 k to 256 k + 255), computes the tile of squared
  distances against the whole x block, and stores twice: into the second output's buffer, at lanes 256 k to
  256 k + 255, the root-shifted row minima (rowPiece: a function of the tile alone); and into the scratch, whole,
  the running column minimum (colPiece: a function of the tile and of the scratch as the trip finds it). It also
  loads the lanes of the second output it is about to overwrite and uses nothing of them, so neither piece depends
  on what that buffer held.

  The loop's invariant keeps, per written buffer, the list of the pieces of the trips so far (latest first),
  each trip's pieces taken at the contents the earlier trips left. Spelt with the two pieces above, one more
  trip conses one piece on each list (pieces_succ); and the lists do not depend on the contents the second
  output's buffer had at loop entry (pieces_indep).
-/
import proofs.«120924_j39548058862073_2_alg».proof.Proof.Gen.KernelIdeal.Loops

noncomputable section

namespace Cert.KernelIdeal.LoopPieces

open Cert.KernelIdeal Cert.KernelIdeal.Gen
open Idealize.ShloMosaic Idealize.ShloMosaic.TcCoe Idealize.SL.Sem

variable {F : FTy → Type} [FloatOps F]

/-- Tile k of the y block: what trip k loads of it. -/
abbrev tile (arg2 : Memref sig .tc .vmem S1x4096x3 .f32) (X2 : BufTy.Contents (Elt F) arg2.view.ty)
    (k : Fin k0_t1_loop.trips) : Vec F S1x256x3 .f32 :=
  arg2.view.readAt (Elt F) (Rect.unit (s := S1x4096x3) (k0_off1 k) S1x256x3.size (k0_off1_inb k)).toLoadRect X2

/-- What trip k stores into the second output's buffer: the tile's root-shifted row minima at the trip's lanes. -/
abbrev rowPiece (v0 : Vec F S1x3x4096 .f32) (arg2 : Memref sig .tc .vmem S1x4096x3 .f32)
    (X2 : BufTy.Contents (Elt F) arg2.view.ty) (k : Fin k0_t1_loop.trips) : View.Piece (Elt F) S1x1x4096 .f32 :=
  ⟨Rect.unit (s := S1x1x4096) (k0_off2 k) S1x1x256.size (k0_off2_inb k), k0_pay3 v0 (tile arg2 X2 k)⟩

/-- What trip k stores into the scratch, found at contents f5: the running column minimum, whole. -/
abbrev colPiece (arg5 : Memref sig .tc .vmem S1x4096 .f32) (v0 : Vec F S1x3x4096 .f32)
    (arg2 : Memref sig .tc .vmem S1x4096x3 .f32) (X2 : BufTy.Contents (Elt F) arg2.view.ty)
    (k : Fin k0_t1_loop.trips) (f5 : BufTy.Contents (Elt F) arg5.view.ty) : View.Piece (Elt F) S1x4096 .f32 :=
  ⟨Rect.unit (s := S1x4096) ![0, 0] S1x4096.size inb_S1x4096_S1x4096_0_0,
    k0_pay4 v0 (tile arg2 X2 k)
      (arg5.view.readAt (Elt F) (Rect.unit (s := S1x4096) ![0, 0] S1x4096.size inb_S1x4096_S1x4096_0_0).toLoadRect f5)⟩

section
variable (𝒱 : Variants) (c : Dev nD) (bd : Option 𝒱.V) (i : grid0.Coords) (arg1 : Memref sig .tc .vmem S1x3x4096 .f32) (harg1 : arg1.IsWhole) (arg2 : Memref sig .tc .vmem S1x4096x3 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x4096 .f32) (harg5 : arg5.IsWhole) (v0 : Vec F S1x3x4096 .f32) (X2 : BufTy.Contents (Elt F) arg2.view.ty)

/-- One trip's two piece lists, read off the trip's run: one piece each. -/
theorem trip_eq (k : Fin k0_t1_loop.trips) (f4 : BufTy.Contents (Elt F) arg4.view.ty) (f5 : BufTy.Contents (Elt F) arg5.view.ty) :
    tripL_k0_t1 (F := F) 𝒱 c bd i arg1 harg1 arg2 harg2 arg3 harg3 arg4 harg4 arg5 harg5 v0 X2 k f4 f5 = ([rowPiece v0 arg2 X2 k], [colPiece arg5 v0 arg2 X2 k f5]) := by
  unfold tripL_k0_t1
  unfold trip_k0_t1
  rfl

/-- One more trip conses one piece on each list. -/
theorem pieces_succ (G4 : BufTy.Contents (Elt F) arg4.view.ty) (G5 : BufTy.Contents (Elt F) arg5.view.ty) (n : ℕ) (hn : n < k0_t1_loop.trips) :
    pb_k0_t1 (F := F) 𝒱 c bd i arg1 harg1 arg2 harg2 arg3 harg3 arg4 harg4 arg5 harg5 v0 X2 G4 G5 (n + 1)
      = (rowPiece v0 arg2 X2 ⟨n, hn⟩ :: (pb_k0_t1 (F := F) 𝒱 c bd i arg1 harg1 arg2 harg2 arg3 harg3 arg4 harg4 arg5 harg5 v0 X2 G4 G5 n).1,
         colPiece arg5 v0 arg2 X2 ⟨n, hn⟩ (arg5.view.writes (Elt F) G5 (pb_k0_t1 (F := F) 𝒱 c bd i arg1 harg1 arg2 harg2 arg3 harg3 arg4 harg4 arg5 harg5 v0 X2 G4 G5 n).2)
           :: (pb_k0_t1 (F := F) 𝒱 c bd i arg1 harg1 arg2 harg2 arg3 harg3 arg4 harg4 arg5 harg5 v0 X2 G4 G5 n).2) := by
  have h := pb_k0_t1_succ (F := F) 𝒱 c bd i arg1 harg1 arg2 harg2 arg3 harg3 arg4 harg4 arg5 harg5 v0 X2 G4 G5 ⟨n, hn⟩
  rw [trip_eq] at h
  exact h

/-- The pieces do not depend on what the second output's buffer held at loop entry. -/
theorem pieces_indep (G4 G4' : BufTy.Contents (Elt F) arg4.view.ty) (G5 : BufTy.Contents (Elt F) arg5.view.ty) :
    ∀ n, n ≤ k0_t1_loop.trips → pb_k0_t1 (F := F) 𝒱 c bd i arg1 harg1 arg2 harg2 arg3 harg3 arg4 harg4 arg5 harg5 v0 X2 G4 G5 n = pb_k0_t1 (F := F) 𝒱 c bd i arg1 harg1 arg2 harg2 arg3 harg3 arg4 harg4 arg5 harg5 v0 X2 G4' G5 n
  | 0, _ => rfl
  | n + 1, hn => by
    have ih := pieces_indep G4 G4' G5 n (Nat.le_of_succ_le hn)
    rw [pieces_succ 𝒱 c bd i arg1 harg1 arg2 harg2 arg3 harg3 arg4 harg4 arg5 harg5 v0 X2 G4 G5 n hn, pieces_succ 𝒱 c bd i arg1 harg1 arg2 harg2 arg3 harg3 arg4 harg4 arg5 harg5 v0 X2 G4' G5 n hn, ih]

end

end Cert.KernelIdeal.LoopPieces

end
-- ==== Proof.MinLaws.lean ====
/-
  The order facts that join the two programs.

  Both programs compute, for each point, a minimum of distances followed (or preceded) by z ↦ √(ε + z).
  On the extended reals z ↦ ε + z is monotone, and the square root is monotone on ALL of them (it answers ⊥
  below zero, ⊤ at ⊤), so their composite is a monotone map; a monotone map of a linear order commutes with a
  finite fold of min (map_fold_min). That moves the root from outside a minimum to inside it.

  One of the kernel's two minima is taken in sixteen steps: a running minimum, started at ⊤, that at step n
  takes in the minimum over the 256 rows of block n. A fold of min from ⊤ is characterised by its lower
  bounds (z ≤ fold ↔ z is below every entry), and the rows of the blocks before n are the rows below 256 n,
  so after sixteen steps the running minimum is the minimum over all 4096 rows (blocked_min).
-/
import Idealize.ShloMosaic.PureOps.Ideal
import Idealize.ShloMosaic.PureOps.Ideal.Laws

noncomputable section

namespace Cert.Chamfer

open Idealize.ShloMosaic

/-- The square root of the extended reals is monotone everywhere: ⊥ below zero, the real root from zero on,
    ⊤ at ⊤. -/
theorem sqrt_mono : Monotone Ideal.sqrt := by
  intro x y hxy
  induction x using EReal.rec with
  | bot => exact bot_le
  | top =>
    have hy : y = ⊤ := top_le_iff.mp hxy
    subst hy; exact le_rfl
  | coe r =>
    induction y using EReal.rec with
    | bot => exact absurd hxy (by simp)
    | top => exact le_top
    | coe s =>
      have hrs : r ≤ s := EReal.coe_le_coe_iff.mp hxy
      show Ideal.sqrt (r : EReal) ≤ Ideal.sqrt (s : EReal)
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt hrs)

/-- z ↦ √(e + z), the map both programs apply around their minima. -/
def rootShift (e : EReal) (z : EReal) : EReal := Ideal.sqrt (e + z)

theorem rootShift_mono (e : EReal) : Monotone (rootShift e) :=
  fun _ _ h => sqrt_mono (add_le_add_right h e)

/-- A monotone map commutes with a finite fold of min. -/
theorem map_fold_min {ι : Type} {g : EReal → EReal} (hg : Monotone g) (s : Finset ι) (f : ι → EReal) (b : EReal) :
    g (s.fold min b f) = s.fold min (g b) (fun i => g (f i)) := by
  classical
  induction s using Finset.induction_on with
  | empty => rfl
  | insert a s ha ih => rw [Finset.fold_insert ha, Finset.fold_insert ha, hg.map_min, ih]

/-- What lies below a fold of min from ⊤ over a whole index type: what lies below every entry. -/
theorem le_fold_min_top {ι : Type} [Fintype ι] (f : ι → EReal) (z : EReal) :
    z ≤ (Finset.univ : Finset ι).fold min ⊤ f ↔ ∀ i, z ≤ f i := by
  rw [Finset.le_fold_min]
  exact ⟨fun h i => h.2 i (Finset.mem_univ i), fun h => ⟨le_top, fun i _ => h i⟩⟩

/-- Over a nonempty index type a monotone map commutes with the fold of min from ⊤, whatever it does to ⊤ itself:
    its value at ⊤ is above its value at any entry, so it drops out of the minimum. -/
theorem map_fold_min_top {ι : Type} [Fintype ι] [Nonempty ι] {g : EReal → EReal} (hg : Monotone g) (f : ι → EReal) :
    g ((Finset.univ : Finset ι).fold min ⊤ f) = (Finset.univ : Finset ι).fold min ⊤ fun i => g (f i) := by
  rw [map_fold_min hg]
  refine eq_of_forall_le_iff fun z => ?_
  rw [Finset.le_fold_min, le_fold_min_top]
  constructor
  · exact fun h i => h.2 i (Finset.mem_univ i)
  · intro h
    obtain ⟨i0⟩ := ‹Nonempty ι›
    exact ⟨(h i0).trans (hg le_top), fun i _ => h i⟩

/-- The pattern of +inf denotes ⊤. -/
theorem ofBits_inf : Ideal.ofBits .f32 0x7F800000#32 = ⊤ := by simp [Ideal.ofBits, Ideal.ieee]

/-- A running minimum over sixteen blocks of 256 rows, started at ⊤, is the minimum over the 4096 rows. -/
theorem blocked_min (D : Fin 4096 → EReal) (a : ℕ → EReal) (h0 : a 0 = ⊤)
    (hs : ∀ (n : ℕ) (hn : n < 16), a (n + 1)
      = min (a n) ((Finset.univ : Finset (Fin 256)).fold min ⊤ fun r => D ⟨256 * n + r.val, by have := r.isLt; omega⟩)) :
    a 16 = (Finset.univ : Finset (Fin 4096)).fold min ⊤ D := by
  have key : ∀ n, n ≤ 16 → ∀ z, z ≤ a n ↔ ∀ i : Fin 4096, i.val < 256 * n → z ≤ D i := by
    intro n
    induction n with
    | zero =>
      intro _ z
      rw [h0]
      exact ⟨fun _ i hi => absurd hi (by omega), fun _ => le_top⟩
    | succ n ih =>
      intro hn z
      rw [hs n (by omega), le_min_iff, ih (by omega) z, le_fold_min_top]
      constructor
      · rintro ⟨h1, h2⟩ i hi
        by_cases hlt : i.val < 256 * n
        · exact h1 i hlt
        · have h := h2 ⟨i.val - 256 * n, by omega⟩
          have e : (⟨256 * n + (⟨i.val - 256 * n, by omega⟩ : Fin 256).val, by have := i.isLt; omega⟩ : Fin 4096) = i :=
            Fin.ext (by show 256 * n + (i.val - 256 * n) = i.val; omega)
          rwa [e] at h
      · intro h
        exact ⟨fun i hi => h i (by omega), fun r => h _ (by show 256 * n + r.val < 256 * (n + 1); have := r.isLt; omega)⟩
  refine eq_of_forall_le_iff fun z => ?_
  rw [key 16 le_rfl z, le_fold_min_top]
  exact ⟨fun h i => h i (by have := i.isLt; omega), fun h i _ => h i⟩

end Cert.Chamfer

end
-- ==== Proof.Spec.lean ====
/-
  The specification: what both programs compute, as functions of the two point clouds.

  x and y are f32[4, 4096, 3]: four batches of 4096 points in three coordinates. For batch b, point i of y and
  point j of x, sqd x y b i j is the squared distance Σₖ (x[b,j,k] − y[b,i,k])², the three squares added from
  the left. With ε the f32 literal nearest 1e-6 and rootShift ε z = √(ε + z),
    nearY x y b j = min over i of √(ε + sqd x y b i j)   (for each point of x, its nearest point of y),
    nearX x y b i = min over j of √(ε + sqd x y b i j)   (for each point of y, its nearest point of x),
  each a fold of min from ⊤ over the 4096 candidates. The reference takes the root of every pair and then the
  two minima; the kernel takes the minima of the squared distances and then the root (hoist_*: the root-shift is
  monotone, so it commutes with the minimum).
-/
import Idealize.ShloMosaic.PureOps.Ideal
import Idealize.ShloMosaic.Lib.ValueIdx
import proofs.«120924_j39548058862073_2_alg».proof.Proof.MinLaws

noncomputable section

namespace Cert.Chamfer

open Idealize.ShloMosaic Idealize.ShloMosaic.ValueIdx

/-- A cloud of points: four batches, 4096 points, three coordinates. -/
abbrev Cloud : Type := (⟨3, ![4, 4096, 3]⟩ : Shape).Idx → EReal

/-- The f32 literal both programs add under the root (the float nearest 1e-6); never evaluated. -/
def eps : EReal := Ideal.ofBits .f32 0x358637BD#32

/-- The squared distance between point j of x and point i of y in batch b, its three squares added from the left. -/
def sqd (x y : Cloud) (b : Fin 4) (i j : Fin 4096) : EReal :=
  (x (ix3 b j (0 : Fin 3)) - y (ix3 b i (0 : Fin 3))) * (x (ix3 b j (0 : Fin 3)) - y (ix3 b i (0 : Fin 3)))
    + (x (ix3 b j (1 : Fin 3)) - y (ix3 b i (1 : Fin 3))) * (x (ix3 b j (1 : Fin 3)) - y (ix3 b i (1 : Fin 3)))
    + (x (ix3 b j (2 : Fin 3)) - y (ix3 b i (2 : Fin 3))) * (x (ix3 b j (2 : Fin 3)) - y (ix3 b i (2 : Fin 3)))

/-- For point j of x: the distance to its nearest point of y. -/
def nearY (x y : Cloud) (b : Fin 4) (j : Fin 4096) : EReal :=
  (Finset.univ : Finset (Fin 4096)).fold min ⊤ fun i => rootShift eps (sqd x y b i j)

/-- For point i of y: the distance to its nearest point of x. -/
def nearX (x y : Cloud) (b : Fin 4) (i : Fin 4096) : EReal :=
  (Finset.univ : Finset (Fin 4096)).fold min ⊤ fun j => rootShift eps (sqd x y b i j)

/-- The root-shift of the least squared distance over the points of y is the least root-shifted distance. -/
theorem hoist_nearY (x y : Cloud) (b : Fin 4) (j : Fin 4096) :
    rootShift eps ((Finset.univ : Finset (Fin 4096)).fold min ⊤ fun i => sqd x y b i j) = nearY x y b j :=
  map_fold_min_top (rootShift_mono eps) _

/-- The same over the points of x. -/
theorem hoist_nearX (x y : Cloud) (b : Fin 4) (i : Fin 4096) :
    rootShift eps ((Finset.univ : Finset (Fin 4096)).fold min ⊤ fun j => sqd x y b i j) = nearX x y b i :=
  map_fold_min_top (rootShift_mono eps) _

end Cert.Chamfer

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.Payloads.lean ====
/-
  The kernel body's arithmetic, read at an index at the ideal values.

  One step of the body's loop works on the whole block of x (kept transposed, [1, 3, 4096]: coordinate k of point j
  at (0, k, j)) and a tile of 256 points of y ([1, 256, 3]: coordinate k of the tile's point r at (0, r, k)).
    tile:    the [256, 4096] tile of squared distances; at (r, j) the three squares (x_k(j) − y_k(r))², k = 0, 1, 2,
             added from the left (tile_apply);
    rowOut:  per tile row r, the minimum along the row from +inf, ε added, the root taken, laid out as [1, 1, 256]:
             for each of the tile's points of y, the root-shift of its least squared distance to x (rowOut_apply);
    colAcc:  per column j, the running minimum held in scratch, min'ed with the minimum down the column from +inf:
             for each point of x, the least squared distance to the points of y seen so far (colAcc_apply);
    seed:    what the scratch is filled with before the loop: +inf everywhere (seed_apply);
    final:   after the loop, ε added to the scratch and the root taken, laid out as [1, 1, 4096] (final_apply).
  Layout operations (casts that add or drop a unit axis, a row or a column broadcast, a slice of one row or one
  column, a transpose) only move entries; each is read at an index by the library's lemma for it.
-/
import proofs.«120924_j39548058862073_2_alg».proof.Proof.Gen.KernelIdeal.Skeleton
import proofs.«120924_j39548058862073_2_alg».proof.Proof.Spec
import proofs.«120924_j39548058862073_2_alg».proof.Proof.LibKeepdims
import proofs.«120924_j39548058862073_2_alg».proof.Proof.LibMinReduce
import Idealize.ShloMosaic.Lib.ValueIdx
import Idealize.ShloMosaic.Lib.ValueLayout
import Idealize.ShloMosaic.Lib.Pipeline.Value

noncomputable section

namespace Cert.Chamfer.Body

open Cert.KernelIdeal Cert.KernelIdeal.Gen
open Idealize.ShloMosaic Idealize.ShloMosaic.ValueIdx Cert.Keepdims Cert.MinReduce

/-- The vector square root at an index is the root of the entry. -/
theorem sqrt_apply {s : Shape} {φ : FTy} (a : FVec Ideal s φ) (i : s.Idx) : sqrt a i = Ideal.sqrt (a i) := rfl

/-- Row o of the transposed block of x: coordinate o of point j. -/
theorem xrow_apply (xb : (⟨3, ![1, 3, 4096]⟩ : Shape).Idx → EReal) (o : ℕ) (ho : o < 3)
    (h1 : (⟨3, ![1, 3, 4096]⟩ : Shape).ShapeCasts ⟨2, ![3, 4096]⟩)
    (h2 : (⟨2, ![3, 4096]⟩ : Shape).Slices ![o, 0] ⟨2, ![1, 4096]⟩) (u : Fin 1) (j : Fin 4096) :
    extractStridedSlice ⟨2, ![1, 4096]⟩ ![o, 0] (shapeCast ⟨2, ![3, 4096]⟩ xb h1) h2 (ix2 u j) = xb (ix3 (0 : Fin 1) ⟨o, ho⟩ j) := by
  rw [slice2_axis0_apply o _ h2 u j ⟨o, ho⟩ (by have := u.isLt; show o = o + u.val; omega)]
  exact shapeCast_1ab_ab_apply xb h1 _ j

/-- Column o of the tile of y: coordinate o of the tile's point r. -/
theorem ycol_apply (yb : (⟨3, ![1, 256, 3]⟩ : Shape).Idx → EReal) (o : ℕ) (ho : o < 3)
    (h1 : (⟨3, ![1, 256, 3]⟩ : Shape).ShapeCasts ⟨2, ![256, 3]⟩)
    (h2 : (⟨2, ![256, 3]⟩ : Shape).Slices ![0, o] ⟨2, ![256, 1]⟩) (r : Fin 256) (u : Fin 1) :
    extractStridedSlice ⟨2, ![256, 1]⟩ ![0, o] (shapeCast ⟨2, ![256, 3]⟩ yb h1) h2 (ix2 r u) = yb (ix3 (0 : Fin 1) r ⟨o, ho⟩) := by
  rw [slice2_axis1_apply o _ h2 r u ⟨o, ho⟩ (by have := u.isLt; show o = o + u.val; omega)]
  exact shapeCast_1ab_ab_apply yb h1 r _

/-- The tile of squared distances at (r, j). -/
theorem tile_apply (xb : Vec Ideal S1x3x4096 .f32) (yb : Vec Ideal S1x256x3 .f32) (r : Fin 256) (j : Fin 4096) :
    k0_pay2 (F := Ideal) xb yb (ix2 r j)
      = (xb (ix3 (0 : Fin 1) (0 : Fin 3) j) - yb (ix3 (0 : Fin 1) r (0 : Fin 3))) * (xb (ix3 (0 : Fin 1) (0 : Fin 3) j) - yb (ix3 (0 : Fin 1) r (0 : Fin 3)))
        + (xb (ix3 (0 : Fin 1) (1 : Fin 3) j) - yb (ix3 (0 : Fin 1) r (1 : Fin 3))) * (xb (ix3 (0 : Fin 1) (1 : Fin 3) j) - yb (ix3 (0 : Fin 1) r (1 : Fin 3)))
        + (xb (ix3 (0 : Fin 1) (2 : Fin 3) j) - yb (ix3 (0 : Fin 1) r (2 : Fin 3))) * (xb (ix3 (0 : Fin 1) (2 : Fin 3) j) - yb (ix3 (0 : Fin 1) r (2 : Fin 3))) := by
  have hx : ∀ (o : ℕ) (ho : o < 3) (h1 : S1x3x4096.ShapeCasts S3x4096) (h2 : S3x4096.Slices ![o, 0] S1x4096)
      (h3 : S1x4096.Broadcasts S256x4096),
      broadcastTo S256x4096 (extractStridedSlice S1x4096 ![o, 0] (shapeCast S3x4096 xb h1) h2) h3 (ix2 r j)
        = xb (ix3 (0 : Fin 1) ⟨o, ho⟩ j) :=
    fun o ho h1 h2 h3 => (broadcastTo_1b_ab_apply _ h3 r j).trans (xrow_apply xb o ho h1 h2 0 j)
  have hy : ∀ (o : ℕ) (ho : o < 3) (h1 : S1x256x3.ShapeCasts S256x3) (h2 : S256x3.Slices ![0, o] S256x1)
      (h3 : S256x1.Broadcasts S256x4096),
      broadcastTo S256x4096 (extractStridedSlice S256x1 ![0, o] (shapeCast S256x3 yb h1) h2) h3 (ix2 r j)
        = yb (ix3 (0 : Fin 1) r ⟨o, ho⟩) :=
    fun o ho h1 h2 h3 => (broadcastTo_a1_ab_apply _ h3 r j).trans (ycol_apply yb o ho h1 h2 r 0)
  unfold k0_pay2
  show (broadcastTo S256x4096 _ _ (ix2 r j) - broadcastTo S256x4096 _ _ (ix2 r j)) * (broadcastTo S256x4096 _ _ (ix2 r j) - broadcastTo S256x4096 _ _ (ix2 r j))
      + (broadcastTo S256x4096 _ _ (ix2 r j) - broadcastTo S256x4096 _ _ (ix2 r j)) * (broadcastTo S256x4096 _ _ (ix2 r j) - broadcastTo S256x4096 _ _ (ix2 r j))
      + (broadcastTo S256x4096 _ _ (ix2 r j) - broadcastTo S256x4096 _ _ (ix2 r j)) * (broadcastTo S256x4096 _ _ (ix2 r j) - broadcastTo S256x4096 _ _ (ix2 r j)) = _
  rw [hx 0 (by decide), hx 1 (by decide), hx 2 (by decide), hy 0 (by decide), hy 1 (by decide), hy 2 (by decide)]
  rfl

/-- Per row of the tile: the root-shift of the row's minimum. -/
theorem rowOut_apply (xb : Vec Ideal S1x3x4096 .f32) (yb : Vec Ideal S1x256x3 .f32) (u0 u1 : Fin 1) (r : Fin 256) :
    k0_pay3 (F := Ideal) xb yb (ix3 u0 u1 r)
      = rootShift eps ((Finset.univ : Finset (Fin 4096)).fold min ⊤ fun j => k0_pay2 (F := Ideal) xb yb (ix2 r j)) := by
  unfold k0_pay3
  rw [shapeCast_ab_1ab_apply, transpose_ix2_apply, sqrt_apply, addf_apply, broadcast_apply, Ideal.ofBits_def,
    shapeCast_a_a1_apply]
  unfold rootShift eps
  refine congrArg (fun z => Ideal.sqrt (Ideal.ofBits .f32 0x358637BD#32 + z)) ?_
  refine (multiReduction_minimumf_single (k0_pay2 (F := Ideal) xb yb) _ _ _ _ (ix1 r)).trans ?_
  rw [ofBits_inf]
  refine congrArg (fun f => Finset.fold min ⊤ f (Finset.univ : Finset (Fin 4096))) (funext fun j => ?_)
  exact congrArg (k0_pay2 (F := Ideal) xb yb) (lift_cols _ r j)

/-- Per column of the tile: the running minimum min'ed with the column's minimum. -/
theorem colAcc_apply (xb : Vec Ideal S1x3x4096 .f32) (yb : Vec Ideal S1x256x3 .f32) (acc : Vec Ideal S1x4096 .f32) (u : Fin 1) (j : Fin 4096) :
    k0_pay4 (F := Ideal) xb yb acc (ix2 u j)
      = min (acc (ix2 u j)) ((Finset.univ : Finset (Fin 256)).fold min ⊤ fun r => k0_pay2 (F := Ideal) xb yb (ix2 r j)) := by
  unfold k0_pay4
  rw [shapeCast_self]
  show min (acc (ix2 u j)) (shapeCast S1x4096 _ _ (ix2 u j)) = _
  rw [shapeCast_a_1a_apply]
  refine congrArg (fun z => min (acc (ix2 u j)) z) ?_
  refine (multiReduction_minimumf_single (k0_pay2 (F := Ideal) xb yb) _ _ _ _ (ix1 j)).trans ?_
  rw [ofBits_inf]
  refine congrArg (fun f => Finset.fold min ⊤ f (Finset.univ : Finset (Fin 256))) (funext fun r => ?_)
  exact congrArg (k0_pay2 (F := Ideal) xb yb) (lift_rows _ j r)

/-- The scratch before the loop: +inf everywhere. -/
theorem seed_apply (i : S1x4096.Idx) : k0_pay1 (F := Ideal) i = ⊤ := by
  unfold k0_pay1
  rw [shapeCast_self]
  exact ofBits_inf

/-- After the loop: the root-shift of the scratch, as a [1, 1, 4096] block. -/
theorem final_apply (acc : Vec Ideal S1x4096 .f32) (u0 u1 : Fin 1) (j : Fin 4096) :
    k0_pay5 (F := Ideal) acc (ix3 u0 u1 j) = rootShift eps (acc (ix2 u1 j)) := by
  unfold k0_pay5
  rw [shapeCast_ab_1ab_apply]
  rfl

end Cert.Chamfer.Body

end
-- ==== Proof.LoopValue.lean ====
/-
  What the loop leaves, as values (at the ideal instance).

  The block of x is xb ([1, 3, 4096]: coordinate k of point j at (0, k, j)); the block of y is yb ([1, 4096, 3]:
  coordinate k of point i at (0, i, k)), held whole in its buffer, so tile k of it is its rows 256 k … 256 k + 255
  (tile_apply). blockSqd xb yb i j is the squared distance between point j of x and point i of y.

  Second output (per point i of y). Trip k's piece sits at lanes 256 k … 256 k + 255 and later trips' pieces sit
  at later lanes, so in the list of the first n trips' pieces lane 256 k + r (k < n) reads trip k's payload at r
  (rows_before, by induction on n): the root-shift of the least squared distance from point 256 k + r of y to the
  points of x (rows_final).

  Scratch (per point j of x). It starts at +inf (the store before the loop), and each trip replaces it, whole, by
  its minimum with the trip's column minima (scratch_succ); a running minimum over sixteen blocks of 256 rows from ⊤
  is the minimum over all 4096 rows (scratch_final, by blocked_min).
-/
import proofs.«120924_j39548058862073_2_alg».proof.Proof.LoopPieces
import proofs.«120924_j39548058862073_2_alg».proof.Proof.Payloads
import Idealize.ShloMosaic.Lib.Pipeline.Value
import Idealize.ShloMosaic.Lib.WholeRead

noncomputable section

namespace Cert.Chamfer.Loop

open Cert.KernelIdeal Cert.KernelIdeal.Gen Cert.KernelIdeal.LoopPieces Cert.Chamfer.Body
open Idealize.ShloMosaic Idealize.ShloMosaic.TcCoe Idealize.SL.Sem Idealize.ShloMosaic.ValueIdx

/-- The squared distance between point j of the x block and point i of the y block, the three squares added from the left. -/
def blockSqd (xb : Vec Ideal S1x3x4096 .f32) (yb : Vec Ideal S1x4096x3 .f32) (i j : Fin 4096) : EReal :=
  (xb (ix3 (0 : Fin 1) (0 : Fin 3) j) - yb (ix3 (0 : Fin 1) i (0 : Fin 3))) * (xb (ix3 (0 : Fin 1) (0 : Fin 3) j) - yb (ix3 (0 : Fin 1) i (0 : Fin 3)))
    + (xb (ix3 (0 : Fin 1) (1 : Fin 3) j) - yb (ix3 (0 : Fin 1) i (1 : Fin 3))) * (xb (ix3 (0 : Fin 1) (1 : Fin 3) j) - yb (ix3 (0 : Fin 1) i (1 : Fin 3)))
    + (xb (ix3 (0 : Fin 1) (2 : Fin 3) j) - yb (ix3 (0 : Fin 1) i (2 : Fin 3))) * (xb (ix3 (0 : Fin 1) (2 : Fin 3) j) - yb (ix3 (0 : Fin 1) i (2 : Fin 3)))

theorem trips_eq : k0_t1_loop.trips = 16 := by decide

theorem hz2 : (![0, 0] : Fin 2 → ℕ) = fun _ => 0 := funext fun a => by fin_cases a <;> rfl

/-- Tile k of a block of y held whole in its buffer: rows 256 k … 256 k + 255 of the block. -/
theorem tile_apply (arg2 : Memref sig .tc .vmem S1x4096x3 .f32) (harg2 : arg2.IsWhole) (yb : Vec Ideal S1x4096x3 .f32)
    (k : Fin k0_t1_loop.trips) (u : Fin 1) (r : Fin 256) (cc : Fin 3) (hlt : 256 * k.val + r.val < 4096) :
    tile (F := Ideal) arg2 (harg2.unread yb) k (ix3 u r cc) = yb (ix3 u ⟨256 * k.val + r.val, hlt⟩ cc) := by
  unfold tile
  rw [Memref.IsWhole.readAt_unread]
  refine congrArg yb (funext fun a => Fin.ext ?_)
  have e0 : k0_off1 k (0 : Fin 3) = 0 := by rw [k0_off1_eq]; rfl
  have e1 : k0_off1 k (1 : Fin 3) = 256 * k.val := by rw [k0_off1_eq]; rfl
  have e2 : k0_off1 k (2 : Fin 3) = 0 := by rw [k0_off1_eq]; rfl
  match a with
  | ⟨0, _⟩ => show k0_off1 k (0 : Fin 3) + 1 * u.val = u.val; rw [e0]; omega
  | ⟨1, _⟩ => show k0_off1 k (1 : Fin 3) + 1 * r.val = 256 * k.val + r.val; rw [e1]; omega
  | ⟨2, _⟩ => show k0_off1 k (2 : Fin 3) + 1 * cc.val = cc.val; rw [e2]; omega

/-- The tile of squared distances of trip k: row r is point 256 k + r of y. -/
theorem tileSqd (xb : Vec Ideal S1x3x4096 .f32) (arg2 : Memref sig .tc .vmem S1x4096x3 .f32) (harg2 : arg2.IsWhole)
    (yb : Vec Ideal S1x4096x3 .f32) (k : Fin k0_t1_loop.trips) (r : Fin 256) (j : Fin 4096) (hlt : 256 * k.val + r.val < 4096) :
    k0_pay2 (F := Ideal) xb (tile (F := Ideal) arg2 (harg2.unread yb) k) (ix2 r j) = blockSqd xb yb ⟨256 * k.val + r.val, hlt⟩ j := by
  rw [Body.tile_apply, tile_apply arg2 harg2 yb k 0 r 0 hlt, tile_apply arg2 harg2 yb k 0 r 1 hlt, tile_apply arg2 harg2 yb k 0 r 2 hlt]
  rfl

section
variable (𝒱 : Variants) (c : Dev nD) (bd : Option 𝒱.V) (i : grid0.Coords) (arg1 : Memref sig .tc .vmem S1x3x4096 .f32) (harg1 : arg1.IsWhole) (arg2 : Memref sig .tc .vmem S1x4096x3 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x4096 .f32) (harg5 : arg5.IsWhole)
  (xb : Vec Ideal S1x3x4096 .f32) (yb : Vec Ideal S1x4096x3 .f32) (G4 : BufTy.Contents (Elt Ideal) arg4.view.ty)

/-- The scratch's contents at loop entry: +inf stored over whatever it held. -/
abbrev entry5 : BufTy.Contents (Elt Ideal) arg5.view.ty :=
  arg5.view.writes (Elt Ideal) arg5.view.junk [⟨Rect.unit (s := S1x4096) ![0, 0] S1x4096.size inb_S1x4096_S1x4096_0_0, k0_pay1 (F := Ideal)⟩]

/-- The pieces of the first n trips. -/
abbrev pieces (n : ℕ) : List (View.Piece (Elt Ideal) S1x1x4096 .f32) × List (View.Piece (Elt Ideal) S1x4096 .f32) :=
  pb_k0_t1 (F := Ideal) 𝒱 c bd i arg1 harg1 arg2 harg2 arg3 harg3 arg4 harg4 arg5 harg5 xb (harg2.unread yb) G4 (entry5 arg5) n

/-- The scratch after n trips, as a [1, 4096] vector. -/
abbrev scratch (n : ℕ) : S1x4096.Idx → EReal :=
  arg5.view.read (Elt Ideal) (arg5.view.writes (Elt Ideal) (entry5 arg5) (pieces 𝒱 c bd i arg1 harg1 arg2 harg2 arg3 harg3 arg4 harg4 arg5 harg5 xb yb G4 n).2)

/-- Before any trip the scratch holds +inf. -/
theorem scratch_zero (u : Fin 1) (j : Fin 4096) : scratch 𝒱 c bd i arg1 harg1 arg2 harg2 arg3 harg3 arg4 harg4 arg5 harg5 xb yb G4 0 (ix2 u j) = ⊤ := by
  show arg5.view.read (Elt Ideal) (arg5.view.writes (Elt Ideal) arg5.view.junk _) (ix2 u j) = ⊤
  rw [View.read_writes_junk_apply_eq_canon, View.canon_unit_zero hz2]
  exact Body.seed_apply _

/-- A store through the whole-shape rectangle at zero offsets, made last, leaves its payload: what the buffer reads
    after it, whatever it held and whatever was stored before. -/
theorem read_writes_cons_whole {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  funext y
  have e := View.read_writes_cons_emb v f (Rect.whole S) w L y
  rw [Rect.emb_whole_apply] at e
  exact e

/-- One trip replaces the scratch, whole, by the trip's running-minimum payload of what it found there. -/
theorem scratch_succ (n : ℕ) (hn : n < k0_t1_loop.trips) :
    scratch 𝒱 c bd i arg1 harg1 arg2 harg2 arg3 harg3 arg4 harg4 arg5 harg5 xb yb G4 (n + 1)
      = k0_pay4 (F := Ideal) xb (tile (F := Ideal) arg2 (harg2.unread yb) ⟨n, hn⟩) (scratch 𝒱 c bd i arg1 harg1 arg2 harg2 arg3 harg3 arg4 harg4 arg5 harg5 xb yb G4 n) := by
  have hp := pieces_succ 𝒱 c bd i arg1 harg1 arg2 harg2 arg3 harg3 arg4 harg4 arg5 harg5 xb (harg2.unread yb) G4 (entry5 arg5) n hn
  show arg5.view.read (Elt Ideal) (arg5.view.writes (Elt Ideal) (entry5 arg5) (pb_k0_t1 (F := Ideal) 𝒱 c bd i arg1 harg1 arg2 harg2 arg3 harg3 arg4 harg4 arg5 harg5 xb (harg2.unread yb) G4 (entry5 arg5) (n + 1)).2) = _
  rw [hp]
  refine (read_writes_cons_whole arg5.view (entry5 arg5) hz2 _ _ _).trans ?_
  refine congrArg (k0_pay4 (F := Ideal) xb (tile (F := Ideal) arg2 (harg2.unread yb) ⟨n, hn⟩)) ?_
  exact (View.readAt_eq_ld _ _ _).trans (View.ld_unit_zero hz2 _ _)

/-- The scratch after n trips at column j, as a sequence in n (for the running-minimum law). -/
theorem scratch_step (u : Fin 1) (j : Fin 4096) (n : ℕ) (hn : n < 16) :
    scratch 𝒱 c bd i arg1 harg1 arg2 harg2 arg3 harg3 arg4 harg4 arg5 harg5 xb yb G4 (n + 1) (ix2 u j)
      = min (scratch 𝒱 c bd i arg1 harg1 arg2 harg2 arg3 harg3 arg4 harg4 arg5 harg5 xb yb G4 n (ix2 u j))
          ((Finset.univ : Finset (Fin 256)).fold min ⊤ fun r => blockSqd xb yb ⟨256 * n + r.val, by have := r.isLt; omega⟩ j) := by
  have hn' : n < k0_t1_loop.trips := by rw [trips_eq]; exact hn
  rw [scratch_succ 𝒱 c bd i arg1 harg1 arg2 harg2 arg3 harg3 arg4 harg4 arg5 harg5 xb yb G4 n hn', Body.colAcc_apply]
  refine congrArg (fun z => min (scratch 𝒱 c bd i arg1 harg1 arg2 harg2 arg3 harg3 arg4 harg4 arg5 harg5 xb yb G4 n (ix2 u j)) z) ?_
  refine congrArg (fun f => Finset.fold min ⊤ f (Finset.univ : Finset (Fin 256))) (funext fun r => ?_)
  exact tileSqd xb arg2 harg2 yb ⟨n, hn'⟩ r j (by have := r.isLt; show 256 * n + r.val < 4096; omega)

/-- After the sixteen trips the scratch holds, per point j of x, its least squared distance to the points of y. -/
theorem scratch_final (u : Fin 1) (j : Fin 4096) :
    scratch 𝒱 c bd i arg1 harg1 arg2 harg2 arg3 harg3 arg4 harg4 arg5 harg5 xb yb G4 k0_t1_loop.trips (ix2 u j) = (Finset.univ : Finset (Fin 4096)).fold min ⊤ fun i => blockSqd xb yb i j := by
  rw [trips_eq]
  exact blocked_min (fun i => blockSqd xb yb i j) (fun n => scratch 𝒱 c bd i arg1 harg1 arg2 harg2 arg3 harg3 arg4 harg4 arg5 harg5 xb yb G4 n (ix2 u j))
    (scratch_zero 𝒱 c bd i arg1 harg1 arg2 harg2 arg3 harg3 arg4 harg4 arg5 harg5 xb yb G4 u j) (fun n hn => scratch_step 𝒱 c bd i arg1 harg1 arg2 harg2 arg3 harg3 arg4 harg4 arg5 harg5 xb yb G4 u j n hn)

/-- In the pieces of the first n trips, lane 256 k + r of the second output (k < n) reads trip k's payload at r. -/
theorem rows_before (u0 u1 : Fin 1) : ∀ (n : ℕ) (hn : n ≤ k0_t1_loop.trips) (k : ℕ) (hk : k < n) (r : Fin 256) (hlt : 256 * k + r.val < 4096),
    View.canon (pieces 𝒱 c bd i arg1 harg1 arg2 harg2 arg3 harg3 arg4 harg4 arg5 harg5 xb yb G4 n).1 (ix3 u0 u1 ⟨256 * k + r.val, hlt⟩)
      = k0_pay3 (F := Ideal) xb (tile (F := Ideal) arg2 (harg2.unread yb) ⟨k, Nat.lt_of_lt_of_le hk hn⟩) (ix3 u0 u1 r)
  | 0, _, k, hk, _, _ => absurd hk (Nat.not_lt_zero k)
  | n + 1, hn, k, hk, r, hlt => by
    have hn' : n < k0_t1_loop.trips := hn
    unfold pieces
    rw [pieces_succ 𝒱 c bd i arg1 harg1 arg2 harg2 arg3 harg3 arg4 harg4 arg5 harg5 xb (harg2.unread yb) G4 (entry5 arg5) n hn']
    have eoff := k0_off2_eq ⟨n, hn'⟩
    by_cases hkn : k = n
    · subst hkn
      have hemb : (Rect.unit (s := S1x1x4096) (k0_off2 ⟨k, hn'⟩) S1x1x256.size (k0_off2_inb ⟨k, hn'⟩)).emb (ix3 u0 u1 r)
          = ix3 u0 u1 ⟨256 * k + r.val, hlt⟩ := funext fun a => Fin.ext (by
        have e0 : k0_off2 ⟨k, hn'⟩ (0 : Fin 3) = 0 := by rw [eoff]; rfl
        have e1 : k0_off2 ⟨k, hn'⟩ (1 : Fin 3) = 0 := by rw [eoff]; rfl
        have e2 : k0_off2 ⟨k, hn'⟩ (2 : Fin 3) = 256 * k := by rw [eoff]; rfl
        match a with
        | ⟨0, _⟩ => show k0_off2 ⟨k, hn'⟩ (0 : Fin 3) + 1 * u0.val = u0.val; rw [e0]; omega
        | ⟨1, _⟩ => show k0_off2 ⟨k, hn'⟩ (1 : Fin 3) + 1 * u1.val = u1.val; rw [e1]; omega
        | ⟨2, _⟩ => show k0_off2 ⟨k, hn'⟩ (2 : Fin 3) + 1 * r.val = 256 * k + r.val; rw [e2]; omega)
      rw [← hemb]
      exact View.canon_cons_emb _ _ _ _
    · have hk' : k < n := by omega
      rw [View.canon_cons_of_not_mem _ _ (by
        rw [Rect.mem_set_unit]
        intro h
        have h2 := (h (2 : Fin 3)).1
        have e2 : k0_off2 ⟨n, hn'⟩ (2 : Fin 3) = 256 * n := by rw [eoff]; rfl
        rw [e2] at h2
        have : 256 * n ≤ 256 * k + r.val := h2
        have := r.isLt
        omega)]
      exact rows_before u0 u1 n (Nat.le_of_succ_le hn) k hk' r hlt

/-- After the sixteen trips the second output holds, per point l of y, the root-shift of its least squared distance to the points of x. -/
theorem rows_final (u0 u1 : Fin 1) (l : Fin 4096) :
    View.canon (pieces 𝒱 c bd i arg1 harg1 arg2 harg2 arg3 harg3 arg4 harg4 arg5 harg5 xb yb G4 k0_t1_loop.trips).1 (ix3 u0 u1 l)
      = rootShift eps ((Finset.univ : Finset (Fin 4096)).fold min ⊤ fun j => blockSqd xb yb l j) := by
  have hl := l.isLt
  have hk : l.val / 256 < k0_t1_loop.trips := by rw [trips_eq]; omega
  have hr : l.val % 256 < 256 := Nat.mod_lt _ (by decide)
  have hlt : 256 * (l.val / 256) + (⟨l.val % 256, hr⟩ : Fin 256).val < 4096 := by show 256 * (l.val / 256) + l.val % 256 < 4096; omega
  have el : l = ⟨256 * (l.val / 256) + (⟨l.val % 256, hr⟩ : Fin 256).val, hlt⟩ := Fin.ext (by show l.val = 256 * (l.val / 256) + l.val % 256; omega)
  rw [el, rows_before 𝒱 c bd i arg1 harg1 arg2 harg2 arg3 harg3 arg4 harg4 arg5 harg5 xb yb G4 u0 u1 k0_t1_loop.trips le_rfl (l.val / 256) hk ⟨l.val % 256, hr⟩ hlt, Body.rowOut_apply]
  refine congrArg (fun f => rootShift eps (Finset.fold min ⊤ f (Finset.univ : Finset (Fin 4096)))) (funext fun j => ?_)
  exact tileSqd xb arg2 harg2 yb ⟨l.val / 256, hk⟩ ⟨l.val % 256, hr⟩ j hlt

end

end Cert.Chamfer.Loop

end
-- ==== Proof.BodyValue.lean ====
/-
  What the body leaves in the two outputs' staging buffers, as values (at the ideal instance).

  The body's run names each output's contents as the list of the pieces its stores leave, read back over junk; a read
  of writes over junk is the canonical function of the pieces at every index. For blocks x0 of x and x1 of y:
    second output: the pieces are the loop's, so lane l reads the root-shift of the least squared distance from
      point l of y to the points of x (out3_apply, by Loop.rows_final);
    first output: one whole-block piece stored after the loop, the root-shift of the scratch as the loop left it, so
      lane j reads the root-shift of the least squared distance from point j of x to the points of y (out2_apply,
      by Loop.scratch_final).
  The x block is loaded whole at zero offsets, which reads the block itself (load_whole).
-/
import proofs.«120924_j39548058862073_2_alg».proof.Proof.FrameIdeal
import proofs.«120924_j39548058862073_2_alg».proof.Proof.LoopValue

set_option maxRecDepth 16384

noncomputable section

namespace Cert.Chamfer.BodyValue

open Cert.KernelIdeal Cert.KernelIdeal.Gen Cert.KernelIdeal.GenP Cert.Chamfer.Loop
open Idealize.ShloMosaic Idealize.ShloMosaic.TcCoe Idealize.SL.Sem Idealize.ShloMosaic.ValueIdx

theorem hz3 : (![0, 0, 0] : Fin 3 → ℕ) = fun _ => 0 := funext fun a => by fin_cases a <;> rfl

section
variable (c : Dev nD) (i : grid0.Coords) (arg1 : Memref sig .tc .vmem S1x3x4096 .f32) (harg1 : arg1.IsWhole) (arg2 : Memref sig .tc .vmem S1x4096x3 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x4096 .f32) (harg5 : arg5.IsWhole)
  (x0 : Vec Ideal S1x3x4096 .f32) (x1 : Vec Ideal S1x4096x3 .f32)

/-- A whole memref held at the contents that read x0, loaded whole at zero offsets, reads x0. -/
theorem load_whole :
    View.readAt (Elt Ideal) arg1.view (Rect.unit (s := S1x3x4096) ![0, 0, 0] S1x3x4096.size inb_S1x3x4096_S1x3x4096_0_0_0).toLoadRect
      (harg1.unread x0) = x0 :=
  (View.readAt_eq_ld _ _ _).trans
    ((congrArg (fun X => View.ld X (Rect.unit (s := S1x3x4096) ![0, 0, 0] S1x3x4096.size inb_S1x3x4096_S1x3x4096_0_0_0))
      (harg1.read_unread x0)).trans (View.ld_unit_zero hz3 _ x0))

/-- The second output after the body: per point l of y, the root-shift of its least squared distance to the points of x. -/
theorem out3_apply (u0 u1 : Fin 1) (l : Fin 4096) :
    out0_A_3 (F := Ideal) c i arg1 harg1 arg2 harg2 arg3 harg3 arg4 harg4 arg5 harg5 x0 x1 (ix3 u0 u1 l)
      = rootShift eps ((Finset.univ : Finset (Fin 4096)).fold min ⊤ fun j => blockSqd x0 x1 l j) := by
  unfold out0_A_3
  rw [View.read_writes_junk_apply_eq_canon]
  unfold kernelRun0_A
  dsimp only
  rw [load_whole arg1 harg1 x0]
  exact rows_final Variants.none c none i arg1 harg1 arg2 harg2 arg3 harg3 arg4 harg4 arg5 harg5 x0 x1 arg4.view.junk u0 u1 l

/-- The first output after the body: per point j of x, the root-shift of its least squared distance to the points of y. -/
theorem out2_apply (u0 u1 : Fin 1) (j : Fin 4096) :
    out0_A_2 (F := Ideal) c i arg1 harg1 arg2 harg2 arg3 harg3 arg4 harg4 arg5 harg5 x0 x1 (ix3 u0 u1 j)
      = rootShift eps ((Finset.univ : Finset (Fin 4096)).fold min ⊤ fun i' => blockSqd x0 x1 i' j) := by
  unfold out0_A_2
  rw [View.read_writes_junk_apply_eq_canon]
  unfold kernelRun0_A
  dsimp only
  rw [View.canon_unit_zero hz3, load_whole arg1 harg1 x0, View.writes_append, Body.final_apply]
  refine congrArg (rootShift eps) ?_
  refine ((congrFun (View.readAt_eq_ld _ _ _) _).trans (congrFun (View.ld_unit_zero hz2 _ _) _)).trans ?_
  exact scratch_final Variants.none c none i arg1 harg1 arg2 harg2 arg3 harg3 arg4 harg4 arg5 harg5 x0 x1 arg4.view.junk u1 j

end

end Cert.Chamfer.BodyValue

end
-- ==== Proof.Arrays.lean ====
/-
  From blocks to arrays.

  The grid has four points, one per batch. At point t every window's block is batch t: the x window reads batch t of
  the transposed cloud (coordinate k of point j at (t, k, j): the host transposes x before the call), the y window batch
  t of y, and each output window writes batch t of its [4, 1, 4096] array (idx_facts, decided over the grid; xblk,
  yblk, emb_out). So the squared distances the body computes at point t are those of batch t (blockSqd_eq), what the
  body leaves at point t is batch t of
    first output:   (t, 0, j) ↦ nearY x y t j      (for each point of x, its nearest point of y),
    second output:  (t, 0, i) ↦ nearX x y t i      (for each point of y, its nearest point of x)
  — the root-shift moved inside the minimum (hoist_nearY, hoist_nearX) —, and since every index (b, 0, l) of an output
  array lies in point b's block, the arrays end holding those two functions (final2, final3).
-/
import proofs.«120924_j39548058862073_2_alg».proof.Proof.FrameIdeal
import proofs.«120924_j39548058862073_2_alg».proof.Proof.BodyValue
import proofs.«120924_j39548058862073_2_alg».proof.Proof.Spec
import Idealize.ShloMosaic.Lib.Pipeline.Value
import Idealize.ShloMosaic.Lib.ValueLayout
import Idealize.ShloMosaic.Lib.StableHlo.Run

set_option maxRecDepth 16384

noncomputable section

namespace Cert.Chamfer.Arrays

open Cert.KernelIdeal Cert.KernelIdeal.Gen Cert.KernelIdeal.GenP Cert.Chamfer.Loop
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The cloud x as launched on core c. -/
abbrev X (c : Dev nD) : Cloud := (m ((c : Thread nD τ).loc main_arg0) : S4x4096x3.Idx → Elt Ideal .f32)
/-- The cloud y as launched on core c. -/
abbrev Y (c : Dev nD) : Cloud := (m ((c : Thread nD τ).loc main_arg1) : S4x4096x3.Idx → Elt Ideal .f32)

/-- The first output array: for each point of x, the distance to its nearest point of y. -/
def out2Arr (x y : Cloud) : (⟨3, ![4, 1, 4096]⟩ : Shape).Idx → EReal :=
  fun p => nearY x y ⟨(p 0).val, (p 0).isLt⟩ ⟨(p 2).val, (p 2).isLt⟩
/-- The second output array: for each point of y, the distance to its nearest point of x. -/
def out3Arr (x y : Cloud) : (⟨3, ![4, 1, 4096]⟩ : Shape).Idx → EReal :=
  fun p => nearX x y ⟨(p 0).val, (p 0).isLt⟩ ⟨(p 2).val, (p 2).isLt⟩

theorem hN : cfg0.N = 4 := N_0

/-- At point t every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The region finds the x window's array as the host left it: x with its last two axes swapped. -/
theorem V_x (c : Dev nD) : (V m c main_v0 : S4x3x4096.Idx → Elt Ideal .f32)
    = transpose S4x3x4096 [0, 2, 1] (X m c) transposes_S4x4096x3_S4x3x4096_0_2_1 := by
  show StableHlo.after hostOps0 (fun b => m (c, b)) (Proc.devRef .tc main_v0) = _
  after_results

/-- The x block at point t: coordinate k of point j of batch t. -/
theorem xblk (c : Dev nD) (t : Fin cfg0.N) (u : Fin 1) (k : Fin 3) (j : Fin 4096) (ht : t.val < 4) :
    (iblk m c 0 t : Vec Ideal S1x3x4096 .f32) (ix3 u k j) = X m c (ix3 ⟨t.val, ht⟩ j k) := by
  obtain ⟨e0, e1, e2, -⟩ := idx_facts t
  unfold iblk
  rw [View.read_apply]
  show V m c main_v0 _ = _
  rw [V_x]
  refine Eq.trans ?_ (transpose_ix3_021_apply (X m c) transposes_S4x4096x3_S4x3x4096_0_2_1 ⟨t.val, ht⟩ k j)
  refine congrArg _ (funext fun a => Fin.ext ?_)
  have hu := u.isLt
  match a with
  | ⟨0, _⟩ => show win0_0.index t (0 : Fin 3) * 1 + 1 * u.val = t.val; rw [e0]; omega
  | ⟨1, _⟩ => show win0_0.index t (1 : Fin 3) * 3 + 1 * k.val = k.val; rw [e1]; omega
  | ⟨2, _⟩ => show win0_0.index t (2 : Fin 3) * 4096 + 1 * j.val = j.val; rw [e2]; omega

/-- The y block at point t: coordinate k of point i of batch t. -/
theorem yblk (c : Dev nD) (t : Fin cfg0.N) (u : Fin 1) (i : Fin 4096) (k : Fin 3) (ht : t.val < 4) :
    (iblk m c 1 t : Vec Ideal S1x4096x3 .f32) (ix3 u i k) = Y m c (ix3 ⟨t.val, ht⟩ i k) := by
  obtain ⟨-, -, -, e0, e1, e2, -⟩ := idx_facts t
  unfold iblk
  rw [View.read_apply]
  show V m c main_arg1 _ = _
  rw [V_main_arg1]
  refine congrArg _ (funext fun a => Fin.ext ?_)
  have hu := u.isLt
  match a with
  | ⟨0, _⟩ => show win0_1.index t (0 : Fin 3) * 1 + 1 * u.val = t.val; rw [e0]; omega
  | ⟨1, _⟩ => show win0_1.index t (1 : Fin 3) * 4096 + 1 * i.val = i.val; rw [e1]; omega
  | ⟨2, _⟩ => show win0_1.index t (2 : Fin 3) * 3 + 1 * k.val = k.val; rw [e2]; omega

/-- The squared distances the body computes at point t are those of batch t. -/
theorem blockSqd_eq (c : Dev nD) (t : Fin cfg0.N) (ht : t.val < 4) (i j : Fin 4096) :
    blockSqd (iblk m c 0 t) (iblk m c 1 t) i j = sqd (X m c) (Y m c) ⟨t.val, ht⟩ i j := by
  unfold blockSqd sqd
  rw [xblk m c t 0 0 j ht, xblk m c t 0 1 j ht, xblk m c t 0 2 j ht, yblk m c t 0 i 0 ht, yblk m c t 0 i 1 ht, yblk m c t 0 i 2 ht]

/-- Where output 2's block at point t sits in its array: batch t. -/
theorem emb2 (t : Fin cfg0.N) (ht : t.val < 4) (u0 u1 : Fin 1) (l : Fin 4096) :
    (((cfg0.win 2).blk t).view.emb (ix3 u0 u1 l) : S4x1x4096.Idx) = ix3 ⟨t.val, ht⟩ u1 l := by
  obtain ⟨-, -, -, -, -, -, e0, e1, e2, -⟩ := idx_facts t
  refine funext fun a => Fin.ext ?_
  have hu := u0.isLt
  match a with
  | ⟨0, _⟩ => show win0_2.index t (0 : Fin 3) * 1 + 1 * u0.val = t.val; rw [e0]; omega
  | ⟨1, _⟩ => show win0_2.index t (1 : Fin 3) * 1 + 1 * u1.val = u1.val; rw [e1]; omega
  | ⟨2, _⟩ => show win0_2.index t (2 : Fin 3) * 4096 + 1 * l.val = l.val; rw [e2]; omega

/-- Output 2's staging buffer after the body at point t: batch t of the first output array. -/
theorem outs2 (c : Dev nD) (t : Fin cfg0.N) (ht : t.val < 4) (u0 u1 : Fin 1) (l : Fin 4096) :
    (outsAt0 m c t).1 (ix3 u0 u1 l) = nearY (X m c) (Y m c) ⟨t.val, ht⟩ l := by
  unfold outsAt0
  dsimp only
  refine (BodyValue.out2_apply c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) u0 u1 l).trans ?_
  rw [← hoist_nearY]
  refine congrArg (fun f => rootShift eps (Finset.fold min ⊤ f (Finset.univ : Finset (Fin 4096)))) (funext fun i' => ?_)
  exact blockSqd_eq m c t ht i' l

/-- What point t writes back through output 2's window is batch t of out2Arr. -/
theorem flushed2_eq (c : Dev nD) (t : Fin cfg0.N) :
    (dats m 0 c).flushed 2 t = ((cfg0.win 2).blk t).view.read (Elt Ideal) (out2Arr (X m c) (Y m c)) := by
  have ht : t.val < 4 := Nat.lt_of_lt_of_eq t.isLt hN
  show (cfg0.win 2).cut (grid0.coords t) ((dats m 0 c).after 2 t) = _
  rw [after0_2]
  funext y'
  obtain ⟨u0, u1, l, rfl⟩ : ∃ (u0 u1 : Fin 1) (l : Fin 4096), y' = ix3 u0 u1 l :=
    ⟨y' 0, y' 1, y' 2, eq_ix3 (n0 := 1) (n1 := 1) (n2 := 4096) y'⟩
  rw [View.read_apply]
  show (outsAt0 m c t).1 (ix3 u0 u1 l) = out2Arr (X m c) (Y m c) (((cfg0.win 2).blk t).view.emb (ix3 u0 u1 l))
  rw [emb2 t ht u0 u1 l, outs2 m c t ht u0 u1 l]
  rfl

/-- An index of output 2's array is in point t's block iff each coordinate is in the block's range on its axis. -/
theorem mem_blk2 (t : Fin cfg0.N) (i : S4x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v1_0).slice (win0_2.rect t)).set ↔ _
  rw [View.set_slice_whole, Rect.mem_set_unit]
  exact Iff.rfl

/-- Every index (b, 0, l) of output 2's array lies in point b's block. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : ℕ) < 4 := (i 0).isLt
  have h1 : (i 1 : ℕ) < 1 := (i 1).isLt
  have h2 : (i 2 : ℕ) < 4096 := (i 2).isLt
  have hb : (i 0 : ℕ) < cfg0.N := Nat.lt_of_lt_of_eq h0 hN.symm
  obtain ⟨-, -, -, -, -, -, e0, e1, e2, -⟩ := idx_facts ⟨(i 0 : ℕ), hb⟩
  refine ⟨⟨(i 0 : ℕ), hb⟩, flush0_2 _, ?_⟩
  rw [mem_blk2]
  intro a
  match a with
  | ⟨0, _⟩ => show win0_2.index ⟨(i 0 : ℕ), hb⟩ (0 : Fin 3) * 1 ≤ (i 0 : ℕ) ∧ (i 0 : ℕ) < win0_2.index ⟨(i 0 : ℕ), hb⟩ (0 : Fin 3) * 1 + 1; rw [e0]; show (i 0 : ℕ) * 1 ≤ (i 0 : ℕ) ∧ (i 0 : ℕ) < (i 0 : ℕ) * 1 + 1; omega
  | ⟨1, _⟩ => show win0_2.index ⟨(i 0 : ℕ), hb⟩ (1 : Fin 3) * 1 ≤ (i 1 : ℕ) ∧ (i 1 : ℕ) < win0_2.index ⟨(i 0 : ℕ), hb⟩ (1 : Fin 3) * 1 + 1; rw [e1]; omega
  | ⟨2, _⟩ => show win0_2.index ⟨(i 0 : ℕ), hb⟩ (2 : Fin 3) * 4096 ≤ (i 2 : ℕ) ∧ (i 2 : ℕ) < win0_2.index ⟨(i 0 : ℕ), hb⟩ (2 : Fin 3) * 4096 + 4096; rw [e2]; omega

/-- Output 2's array after the run. -/
theorem final2 (c : Dev nD) : (dats m 0 c).arrAt 2 cfg0.N = out2Arr (X m c) (Y m c) :=
  (dats m 0 c).arrAt_eq_of_cover 2 (out2Arr (X m c) (Y m c)) (fun t _ => flushed2_eq m c t) (cover2 c)

/-- Where output 3's block at point t sits in its array: batch t. -/
theorem emb3 (t : Fin cfg0.N) (ht : t.val < 4) (u0 u1 : Fin 1) (l : Fin 4096) :
    (((cfg0.win 3).blk t).view.emb (ix3 u0 u1 l) : S4x1x4096.Idx) = ix3 ⟨t.val, ht⟩ u1 l := by
  obtain ⟨-, -, -, -, -, -, -, -, -, e0, e1, e2⟩ := idx_facts t
  refine funext fun a => Fin.ext ?_
  have hu := u0.isLt
  match a with
  | ⟨0, _⟩ => show win0_3.index t (0 : Fin 3) * 1 + 1 * u0.val = t.val; rw [e0]; omega
  | ⟨1, _⟩ => show win0_3.index t (1 : Fin 3) * 1 + 1 * u1.val = u1.val; rw [e1]; omega
  | ⟨2, _⟩ => show win0_3.index t (2 : Fin 3) * 4096 + 1 * l.val = l.val; rw [e2]; omega

/-- Output 3's staging buffer after the body at point t: batch t of the second output array. -/
theorem outs3 (c : Dev nD) (t : Fin cfg0.N) (ht : t.val < 4) (u0 u1 : Fin 1) (l : Fin 4096) :
    (outsAt0 m c t).2 (ix3 u0 u1 l) = nearX (X m c) (Y m c) ⟨t.val, ht⟩ l := by
  unfold outsAt0
  dsimp only
  refine (BodyValue.out3_apply c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) u0 u1 l).trans ?_
  rw [← hoist_nearX]
  refine congrArg (fun f => rootShift eps (Finset.fold min ⊤ f (Finset.univ : Finset (Fin 4096)))) (funext fun j' => ?_)
  exact blockSqd_eq m c t ht l j'

/-- What point t writes back through output 3's window is batch t of out3Arr. -/
theorem flushed3_eq (c : Dev nD) (t : Fin cfg0.N) :
    (dats m 0 c).flushed 3 t = ((cfg0.win 3).blk t).view.read (Elt Ideal) (out3Arr (X m c) (Y m c)) := by
  have ht : t.val < 4 := Nat.lt_of_lt_of_eq t.isLt hN
  show (cfg0.win 3).cut (grid0.coords t) ((dats m 0 c).after 3 t) = _
  rw [after0_3]
  funext y'
  obtain ⟨u0, u1, l, rfl⟩ : ∃ (u0 u1 : Fin 1) (l : Fin 4096), y' = ix3 u0 u1 l :=
    ⟨y' 0, y' 1, y' 2, eq_ix3 (n0 := 1) (n1 := 1) (n2 := 4096) y'⟩
  rw [View.read_apply]
  show (outsAt0 m c t).2 (ix3 u0 u1 l) = out3Arr (X m c) (Y m c) (((cfg0.win 3).blk t).view.emb (ix3 u0 u1 l))
  rw [emb3 t ht u0 u1 l, outs3 m c t ht u0 u1 l]
  rfl

/-- An index of output 3's array is in point t's block iff each coordinate is in the block's range on its axis. -/
theorem mem_blk3 (t : Fin cfg0.N) (i : S4x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Every index (b, 0, l) of output 3's array lies in point b's block. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : ℕ) < 4 := (i 0).isLt
  have h1 : (i 1 : ℕ) < 1 := (i 1).isLt
  have h2 : (i 2 : ℕ) < 4096 := (i 2).isLt
  have hb : (i 0 : ℕ) < cfg0.N := Nat.lt_of_lt_of_eq h0 hN.symm
  obtain ⟨-, -, -, -, -, -, -, -, -, e0, e1, e2⟩ := idx_facts ⟨(i 0 : ℕ), hb⟩
  refine ⟨⟨(i 0 : ℕ), hb⟩, flush0_3 _, ?_⟩
  rw [mem_blk3]
  intro a
  match a with
  | ⟨0, _⟩ => show win0_3.index ⟨(i 0 : ℕ), hb⟩ (0 : Fin 3) * 1 ≤ (i 0 : ℕ) ∧ (i 0 : ℕ) < win0_3.index ⟨(i 0 : ℕ), hb⟩ (0 : Fin 3) * 1 + 1; rw [e0]; show (i 0 : ℕ) * 1 ≤ (i 0 : ℕ) ∧ (i 0 : ℕ) < (i 0 : ℕ) * 1 + 1; omega
  | ⟨1, _⟩ => show win0_3.index ⟨(i 0 : ℕ), hb⟩ (1 : Fin 3) * 1 ≤ (i 1 : ℕ) ∧ (i 1 : ℕ) < win0_3.index ⟨(i 0 : ℕ), hb⟩ (1 : Fin 3) * 1 + 1; rw [e1]; omega
  | ⟨2, _⟩ => show win0_3.index ⟨(i 0 : ℕ), hb⟩ (2 : Fin 3) * 4096 ≤ (i 2 : ℕ) ∧ (i 2 : ℕ) < win0_3.index ⟨(i 0 : ℕ), hb⟩ (2 : Fin 3) * 4096 + 4096; rw [e2]; omega

/-- Output 3's array after the run. -/
theorem final3 (c : Dev nD) : (dats m 0 c).arrAt 3 cfg0.N = out3Arr (X m c) (Y m c) :=
  (dats m 0 c).arrAt_eq_of_cover 3 (out3Arr (X m c) (Y m c)) (fun t _ => flushed3_eq m c t) (cover3 c)

end Cert.Chamfer.Arrays

end
-- ==== Proof.KernelRun.lean ====
/-
  The kernel program's run, read at its result.

  After the call the host drops the unit axis of each output array ([4, 1, 4096] to [4, 4096]), sums each over both axes
  from 0, divides each sum by 16384, and adds the two quotients: meansOf, one function of the two arrays, applied to
  whatever the call left in them (tail_eq). With the arrays' final contents (Arrays.final2, final3) every weakly fair
  execution of the program ends with its result at meansOf of the two nearest-distance arrays and its arguments as
  launched (run).
-/
import proofs.«120924_j39548058862073_2_alg».proof.Proof.Arrays

set_option maxRecDepth 16384

noncomputable section

namespace Cert.Chamfer.Run

open Cert.KernelIdeal Cert.KernelIdeal.Gen Cert.KernelIdeal.GenP Cert.Chamfer.Arrays
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The host lines after the call: the mean of each [4, 1, 4096] array (its sum from 0 over 16384), the two means added. -/
def meansOf (a b : S4x1x4096.Idx → Elt Ideal .f32) : (⟨S_, .f32⟩ : BufTy).Contents (Elt Ideal) :=
  addf
    (Host.divf (Host.reduceAdd (F := Ideal) (shapeCast S4x4096 a shapeCasts_S4x1x4096_S4x4096) (constant (F := Ideal) S_ .f32 0x00000000#32) reducesTo_S4x4096_S_d0_1 h_S_)
      (constant (F := Ideal) S_ .f32 0x46800000#32))
    (Host.divf (Host.reduceAdd (F := Ideal) (shapeCast S4x4096 b shapeCasts_S4x1x4096_S4x4096) (constant (F := Ideal) S_ .f32 0x00000000#32) reducesTo_S4x4096_S_d0_1 h_S_)
      (constant (F := Ideal) S_ .f32 0x46800000#32))

set_option maxHeartbeats 400000 in
/-- What the lines after the call leave in the result buffer. -/
theorem tail_eq (c : Dev nD) :
    Pipeline.afterTail₀ cfgs (dats m) 0 (V0 m) [hostOps1] c main_v8
      = meansOf (out2Arr (X m c) (Y m c)) (out3Arr (X m c) (Y m c)) := by
  have e2 : Pipeline.withArrays (cfgs 0).spec c (V0 m c) (fun w => (dats m 0 c).arrAt w (cfgs 0).N) (Proc.devRef .tc main_v1_0)
      = out2Arr (X m c) (Y m c) :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v1_1)
      = out3Arr (X m c) (Y m c) :=
    (Pipeline.withArrays_arr spec0 launch0.win.arr_inj c _ _ 3).trans (final3 m c)
  unfold Pipeline.afterTail₀
  show StableHlo.after hostOps1 _ (Proc.devRef .tc main_v8) = _
  after_results
  rw [e2, e3]
  rfl

/-- The run: the result at the two means of the nearest-distance arrays, the arguments unchanged. -/
theorem run : θ_run defs (onTc (τ := τ) (main (F := Ideal))) ⟨m, fun _ => 0, ρ⟩ fun r => ∀ c : Dev nD,
      r.2.mem ((c.tc : Thread nD τ).loc main_v8) = meansOf (out2Arr (X m c) (Y m c)) (out3Arr (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.Chamfer.Run

end
-- ==== Proof.RefMin.lean ====
/-
  The reference, read at an index.

  The reference broadcasts x over the points of y and y over the points of x, subtracts, squares, sums the three
  coordinates (from the initial value 0), adds ε and takes the root: at (b, i, j) that is the root-shift of the
  squared distance between point j of x and point i of y (pair_apply). It then reduces that array with min from
  +inf along the axis of i (one value per point j of x: nearY) and along the axis of j (one per point i of y:
  nearX). A one-axis reduce with a commutative, associative body is the fold over that axis's coordinates.
-/
import proofs.«120924_j39548058862073_2_alg».proof.Proof.Gen.ReferenceIdeal.Read
import proofs.«120924_j39548058862073_2_alg».proof.Proof.Spec
import Idealize.ShloMosaic.Lib.ValueIdx
import Idealize.ShloMosaic.PureOps.Ideal.Laws
import Idealize.ShloMosaic.PureOps.Reduce

noncomputable section

namespace Cert.Chamfer.Ref

open Cert.ReferenceIdeal Cert.ReferenceIdeal.Gen Cert.ReferenceIdeal.Read
open Idealize.ShloMosaic Idealize.ShloMosaic.ValueIdx

/-- The reference's array of root-shifted distances, at batch b, point i of y, point j of x. -/
theorem pair_apply (x y : Cloud) (b : Fin 4) (i j : Fin 4096) :
    val_main_v9 (F := Ideal) x y (ix3 b i j) = rootShift eps (sqd x y b i j) := by
  have e0 : ∀ k : Fin 3, idx_main_v0 (idx_main_v2 (idx_main_v6 (ix3 b i j) k)) = ix3 b j k := fun k =>
    funext fun a => Fin.ext (by match a with | ⟨0, _⟩ => rfl | ⟨1, _⟩ => rfl | ⟨2, _⟩ => rfl)
  have e1 : ∀ k : Fin 3, idx_main_v1 (idx_main_v3 (idx_main_v6 (ix3 b i j) k)) = ix3 b i k := fun k =>
    funext fun a => Fin.ext (by match a with | ⟨0, _⟩ => rfl | ⟨1, _⟩ => rfl | ⟨2, _⟩ => rfl)
  rw [val_main_v9_apply, val_main_v8_apply, val_main_v7_apply, val_main_cst_0_apply, val_main_v6_apply, val_main_cst_apply]
  simp only [val_main_v5_apply, val_main_v4_apply, val_main_v2_apply, val_main_v3_apply, val_main_v0_apply,
    val_main_v1_apply, e0, e1, Fin.sum_univ_three, Ideal.hostUnary_sqrt_def, Ideal.addf_def, Ideal.subf_def,
    Ideal.mulf_def, Ideal.ofBits_def, Ideal.ofBits_zero_f32, zero_add]
  rfl

/-- The reduce along the axis of y's points: for each point of x, the distance to its nearest point of y. -/
theorem nearY_apply (x y : Cloud) (b : Fin 4) (j : Fin 4096) :
    val_main_v10 (F := Ideal) x y (ix2 b j) = nearY x y b j := by
  have h : S4x4096x4096.Reduces [1] S4x4096 := by decide
  unfold val_main_v10
  rw [Host.reduce_eq_fold_single FloatOps.minimumf _ _ _ h h_S_ (ix2 b j)]
  show Finset.fold min (Ideal.ofBits .f32 0x7F800000#32) _ (Finset.univ : Finset (Fin 4096)) = _
  rw [ofBits_inf]
  unfold nearY
  refine congrArg (fun f => Finset.fold min ⊤ f (Finset.univ : Finset (Fin 4096))) (funext fun i => ?_)
  show val_main_v9 (F := Ideal) x y (h.lift (ix2 b j) i) = _
  rw [show h.lift (ix2 b j) i = ix3 b i j from
    funext fun a => Fin.ext (by match a with | ⟨0, _⟩ => rfl | ⟨1, _⟩ => rfl | ⟨2, _⟩ => rfl)]
  exact pair_apply x y b i j

/-- The reduce along the axis of x's points: for each point of y, the distance to its nearest point of x. -/
theorem nearX_apply (x y : Cloud) (b : Fin 4) (i : Fin 4096) :
    val_main_v11 (F := Ideal) x y (ix2 b i) = nearX x y b i := by
  have h : S4x4096x4096.Reduces [2] S4x4096 := by decide
  unfold val_main_v11
  rw [Host.reduce_eq_fold_single FloatOps.minimumf _ _ _ h h_S_ (ix2 b i)]
  show Finset.fold min (Ideal.ofBits .f32 0x7F800000#32) _ (Finset.univ : Finset (Fin 4096)) = _
  rw [ofBits_inf]
  unfold nearX
  refine congrArg (fun f => Finset.fold min ⊤ f (Finset.univ : Finset (Fin 4096))) (funext fun j => ?_)
  show val_main_v9 (F := Ideal) x y (h.lift (ix2 b i) j) = _
  rw [show h.lift (ix2 b i) j = ix3 b i j from
    funext fun a => Fin.ext (by match a with | ⟨0, _⟩ => rfl | ⟨1, _⟩ => rfl | ⟨2, _⟩ => rfl)]
  exact pair_apply x y b i j

end Cert.Chamfer.Ref

end
-- ==== Proof.Bridge.lean ====
/-
  The two results are one number.

  The kernel's first output array with its unit axis dropped is, index by index, the reference's reduce along the
  points of y (both are nearY), and its second the reference's reduce along the points of x (both nearX). The two
  programs then apply the same operations to them — sum from 0, divide by 16384, add — so the results are equal.
-/
import proofs.«120924_j39548058862073_2_alg».proof.Proof.KernelRun
import proofs.«120924_j39548058862073_2_alg».proof.Proof.RefMin
import Idealize.ShloMosaic.Lib.Pipeline.Value

set_option maxRecDepth 16384

noncomputable section

namespace Cert.Chamfer.Bridge

open Cert.Chamfer.Arrays Cert.Chamfer.Run
open Idealize.ShloMosaic Idealize.ShloMosaic.ValueIdx

/-- The first output array, unit axis dropped, is the reference's minimum along the points of y. -/
theorem drop2 (x y : Cloud) :
    shapeCast Cert.KernelIdeal.S4x4096 (out2Arr x y) Cert.KernelIdeal.Gen.shapeCasts_S4x1x4096_S4x4096
      = Cert.ReferenceIdeal.Read.val_main_v10 (F := Ideal) x y := by
  funext p
  obtain ⟨b, j, rfl⟩ : ∃ (b : Fin 4) (j : Fin 4096), p = ix2 b j := ⟨p 0, p 1, eq_ix2 p⟩
  rw [Ref.nearY_apply]
  refine (shapeCast_apply (out2Arr x y) _ (ix2 b j) (ix3 b (0 : Fin 1) j) ?_).trans rfl
  rw [Shape.rowMajor_val_three, Shape.rowMajor_val_two]
  show (b.val * 1 + 0) * 4096 + j.val = b.val * 4096 + j.val
  omega

/-- The second output array, unit axis dropped, is the reference's minimum along the points of x. -/
theorem drop3 (x y : Cloud) :
    shapeCast Cert.KernelIdeal.S4x4096 (out3Arr x y) Cert.KernelIdeal.Gen.shapeCasts_S4x1x4096_S4x4096
      = Cert.ReferenceIdeal.Read.val_main_v11 (F := Ideal) x y := by
  funext p
  obtain ⟨b, i, rfl⟩ : ∃ (b : Fin 4) (i : Fin 4096), p = ix2 b i := ⟨p 0, p 1, eq_ix2 p⟩
  rw [Ref.nearX_apply]
  refine (shapeCast_apply (out3Arr x y) _ (ix2 b i) (ix3 b (0 : Fin 1) i) ?_).trans rfl
  rw [Shape.rowMajor_val_three, Shape.rowMajor_val_two]
  show (b.val * 1 + 0) * 4096 + i.val = b.val * 4096 + i.val
  omega

set_option maxHeartbeats 400000 in
/-- The kernel program's result is the reference's. -/
theorem result_eq (x y : Cloud) :
    meansOf (out2Arr x y) (out3Arr x y) = Cert.ReferenceIdeal.Read.val_main_v16 (F := Ideal) x y := by
  unfold meansOf
  rw [drop2, drop3]
  rfl

end Cert.Chamfer.Bridge

end
-- ==== Proof.lean ====
/-
  A Chamfer-distance kernel against its jnp reference: equal results over the extended reals.

  Inputs x, y : f32[4, 4096, 3], four batches of 4096 points. With d(b, i, j) = Σₖ (x[b,j,k] − y[b,i,k])² and ε the f32
  literal nearest 1e-6, the reference computes √(ε + d) for every pair, takes for each point of x the minimum over the
  points of y and for each point of y the minimum over the points of x (both from +inf), and returns the mean of the
  one plus the mean of the other. The kernel never forms the roots of all pairs: per batch it walks y in sixteen tiles
  of 256 points, takes each tile row's minimum of d over x and only then adds ε and takes the root (the per-y
  output), keeps a running minimum of d down the columns in a scratch buffer started at +inf, and after the last tile
  adds ε and takes the root of that (the per-x output); the host then takes the same two means and adds them.

  The two agree because z ↦ √(ε + z) is monotone on the extended reals (the root answers ⊥ below zero and ⊤ at ⊤), so
  it commutes with a finite minimum (MinLaws, Spec), and because a running minimum over sixteen blocks of rows from ⊤
  is the minimum over all rows (MinLaws.blocked_min). No sum is re-associated beyond the three squares and no
  finiteness of the inputs is used: the precondition is not opened.

  Modules: Spec (the two nearest-distance functions), RefMin (the reference read at an index), Payloads (the body's
  arithmetic at an index), LoopPieces and LoopValue (what the sixteen trips leave), BodyValue (the two staging buffers
  after the body), Arrays (blocks to arrays over the four grid points), KernelRun (the host lines after the call and
  the kernel program's run), Bridge (the two results are one number). The frames of the two kernel programs are the
  frame certificates in FrameBits and FrameIdeal; the reference's frame is its run with the result dropped. The ideal
  pass rewrote nothing, so the kernel's idealization is its own text read at the ideal instance.
-/
import proofs.«120924_j39548058862073_2_alg».proof.Defs
import proofs.«120924_j39548058862073_2_alg».proof.Proof.Gen.Kernel
import proofs.«120924_j39548058862073_2_alg».proof.Proof.Gen.KernelIdeal
import proofs.«120924_j39548058862073_2_alg».proof.Proof.Gen.ReferenceIdeal
import proofs.«120924_j39548058862073_2_alg».proof.Proof.Gen.Pre_finite_inputs
import proofs.«120924_j39548058862073_2_alg».proof.Proof.Gen.ReferenceIdeal.Run
import proofs.«120924_j39548058862073_2_alg».proof.Proof.Gen.ReferenceIdeal.Read
import proofs.«120924_j39548058862073_2_alg».proof.Proof.FrameBits
import proofs.«120924_j39548058862073_2_alg».proof.Proof.FrameIdeal
import proofs.«120924_j39548058862073_2_alg».proof.Proof.KernelRun
import proofs.«120924_j39548058862073_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_p : Cert.frame_Kernel := fun m ρ _ => Cert.Kernel.GenP.frame m ρ

/-- So does its idealization. -/
theorem frame_pi : Cert.frame_KernelIdeal := fun m ρ _ => Cert.KernelIdeal.GenP.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on x and y both idealized programs run, and end with the same number: the kernel program's
    run ends at the two means of the nearest-distance arrays (Run.run), the reference's at its composed term
    (its generated run), which is the same value (Bridge.result_eq). -/
theorem algebraic : Cert.algebraic_KernelIdeal_ReferenceIdeal := by
  intro m ρ m' ρ' _ hagree
  refine ⟨fun c => Cert.Chamfer.Run.meansOf
      (Cert.Chamfer.Arrays.out2Arr (Cert.Chamfer.Arrays.X m c) (Cert.Chamfer.Arrays.Y m c))
      (Cert.Chamfer.Arrays.out3Arr (Cert.Chamfer.Arrays.X m c) (Cert.Chamfer.Arrays.Y m c)),
    Cert.Chamfer.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  exact (Cert.Chamfer.Bridge.result_eq _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
